-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S2048 : Shape := ⟨1, ![2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x512 .f32) (main_arg1 : FVec F S2048x512 .f32) (main_arg2 : FVec F S2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x512 : Shape := ⟨2, ![16384, 512]⟩
abbrev S2048x512 : Shape := ⟨2, ![2048, 512]⟩
abbrev S2048 : Shape := ⟨1, ![2048]⟩
abbrev S1x2048 : Shape := ⟨2, ![1, 2048]⟩
abbrev S16384x2048 : Shape := ⟨2, ![16384, 2048]⟩
abbrev S512x512 : Shape := ⟨2, ![512, 512]⟩
abbrev S1x512 : Shape := ⟨2, ![1, 512]⟩
abbrev S2048x1 : Shape := ⟨2, ![2048, 1]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048, .f32⟩
  | .hbm, ⟨3, _⟩ => ⟨S1x2048, .f32⟩
  | .hbm, ⟨4, _⟩ => ⟨S16384x2048, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048_S1x2048 : S2048.ShapeCasts S1x2048
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  reduces_S2048x512_S2048 : S2048x512.Reduces [1] S2048
  shapeCasts_S2048_S2048x1 : S2048.ShapeCasts S2048x1
  reduces_S512x512_S512 : S512x512.Reduces [1] S512
  shapeCasts_S512_S1x512 : S512.ShapeCasts S1x512
  bitsLt_bf16_f32 : FTy.bits .bf16 < FTy.bits .f32
  broadcasts_S2048x1_S2048x512 : S2048x1.Broadcasts S2048x512
  broadcasts_S1x512_S2048x512 : S1x512.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x512.size a
  hwx0_1 : ∀ i : grid0.Coords, EltTy.bits .f32 = 32 ∨ (Rect.block (s := S2048x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x2048.size a
  hwx0_3 : ∀ i : grid0.Coords, EltTy.bits .f32 = 32 ∨ (Rect.block (s := S16384x2048) S2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S2048, .f32⟩
  | .hbm, ⟨20, _⟩ => ⟨S16384x2048, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S_S1x2048 : S_.BroadcastsInDim S1x2048 (![] : Fin 0 → Fin S1x2048.rank)
  dot_S16384x512_S2048x512_S16384x2048_1_1_0_0_n_n_wf : DotDims.WF S16384x512 S2048x512 S16384x2048 [1] [1] [0] [0] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf

class Facts : Prop extends Facts₀ where

variable [Facts]
-- ==== Proof.Spec.lean ====
/-
  The Gaussian radial-basis layer as ONE function of its three argument arrays, over the extended reals.

  For a point `x_n` (row `n` of `x`, 512 coordinates), a centre `c_m` (row `m` of `centers`) and a log-width `ls_m`:

      out[n, m] = exp ( -( (|x_n|² + |c_m|²) - 2 · <x_n, c_m> ) / ( 2 · (e^{ls_m} · e^{ls_m}) ) )

  where `|a|²` is the sum over the 512 coordinates of `a_k · a_k` and `<a, b>` the sum of `a_k · b_k`.
  The squared distance is kept in its expanded form (two squared norms minus twice the inner product): both
  programs compute exactly that expression, so no law of the reals that fails at the infinities (distributing a
  product over a sum, cancelling) is ever needed, and the statement holds at every extended real.
  The literal `2` is carried as the binary word both programs print; it is never evaluated.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The factor `2.0` of both programs, as its binary word read at the extended reals. -/
abbrev two : EReal := Ideal.ofBits .f32 0x40000000#32

/-- The squared Euclidean norm of row `r` of an array with 512 columns. -/
def rowSq {n : Nat} (a : (⟨2, ![n, 512]⟩ : Shape).Idx → EReal) (r : Fin n) : EReal :=
  ∑ k : Fin 512, a (ix2 r k) * a (ix2 r k)

/-- The inner product of row `r` of one array with row `r'` of another, both with 512 columns. -/
def rowDot {n n' : Nat} (a : (⟨2, ![n, 512]⟩ : Shape).Idx → EReal) (b : (⟨2, ![n', 512]⟩ : Shape).Idx → EReal)
    (r : Fin n) (r' : Fin n') : EReal :=
  ∑ k : Fin 512, a (ix2 r k) * b (ix2 r' k)

/-- One entry of the layer from the three scalars it depends on besides the width: the two squared norms `a`, `b`,
    the inner product `p`, and `e = exp (log-width)`. -/
def entry (a b p e : EReal) : EReal :=
  Ideal.exp (Ideal.div (-((a + b) - two * p)) (two * (e * e)))

/-- The whole [16384, 2048] result. -/
def rbf (x : (⟨2, ![16384, 512]⟩ : Shape).Idx → EReal) (c : (⟨2, ![2048, 512]⟩ : Shape).Idx → EReal)
    (ls : (⟨1, ![2048]⟩ : Shape).Idx → EReal) : (⟨2, ![16384, 2048]⟩ : Shape).Idx → EReal := fun i =>
  entry (rowSq x (i 0)) (rowSq c (i 1)) (rowDot x c (i 0) (i 1)) (Ideal.exp (ls (ix1 (i 1))))

theorem rbf_apply (x : (⟨2, ![16384, 512]⟩ : Shape).Idx → EReal) (c : (⟨2, ![2048, 512]⟩ : Shape).Idx → EReal)
    (ls : (⟨1, ![2048]⟩ : Shape).Idx → EReal) (n : Fin 16384) (m : Fin 2048) :
    rbf x c ls (ix2 n m) = entry (rowSq x n) (rowSq c m) (rowDot x c n m) (Ideal.exp (ls (ix1 m))) := rfl

/-- Rows that agree coordinate by coordinate have the same squared norm, whatever arrays they are rows of. -/
theorem rowSq_congr {n n' : Nat} {a : (⟨2, ![n, 512]⟩ : Shape).Idx → EReal} {b : (⟨2, ![n', 512]⟩ : Shape).Idx → EReal}
    {r : Fin n} {r' : Fin n'} (h : ∀ k : Fin 512, a (ix2 r k) = b (ix2 r' k)) : rowSq a r = rowSq b r' := by
  unfold rowSq
  exact Finset.sum_congr rfl fun k _ => by rw [h k]

/-- Likewise the inner product of two rows. -/
theorem rowDot_congr {n n' l l' : Nat} {a : (⟨2, ![n, 512]⟩ : Shape).Idx → EReal} {a' : (⟨2, ![n', 512]⟩ : Shape).Idx → EReal}
    {b : (⟨2, ![l, 512]⟩ : Shape).Idx → EReal} {b' : (⟨2, ![l', 512]⟩ : Shape).Idx → EReal}
    {r : Fin n} {r' : Fin n'} {s : Fin l} {s' : Fin l'}
    (ha : ∀ k : Fin 512, a (ix2 r k) = a' (ix2 r' k)) (hb : ∀ k : Fin 512, b (ix2 s k) = b' (ix2 s' k)) :
    rowDot a b r s = rowDot a' b' r' s' := by
  unfold rowDot
  exact Finset.sum_congr rfl fun k _ => by rw [ha k, hb k]

theorem entry_congr {a a' b b' p p' e e' : EReal} (h1 : a = a') (h2 : b = b') (h3 : p = p') (h4 : e = e') :
    entry a b p e = entry a' b' p' e' := by
  subst h1 h2 h3 h4
  rfl

/-- The tiled program negates by subtracting from zero and multiplies `(2 · e) · e`; the plain one negates and
    multiplies `2 · (e · e)`. On the extended reals `0 - d = -d` and the product is associative, whatever `d` and `e` are. -/
theorem entry_of_zero_sub (a b p e : EReal) :
    Ideal.exp (Ideal.div (0 - ((a + b) - two * p)) ((two * e) * e)) = entry a b p e := by
  unfold entry
  rw [zero_sub, mul_assoc]

/-- The same with the zero spelt as the binary word the tiled program subtracts from. -/
theorem entry_of_word_sub (a b p e : EReal) :
    Ideal.exp (Ideal.div (Ideal.ofBits .f32 0x00000000#32 - ((a + b) - two * p)) ((two * e) * e)) = entry a b p e := by
  rw [Ideal.ofBits_zero_f32]
  exact entry_of_zero_sub a b p e

/-- A sum started from the zero word is the sum. -/
theorem zero_word_add (s : EReal) : Ideal.ofBits .f32 0x00000000#32 + s = s := by
  rw [Ideal.ofBits_zero_f32, zero_add]

end Cert.Rbf

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  One grid point's stored value, read at an entry `(p, q)` of its [2048, 512] block.

  The body loads a block `x0` of 2048 points, a block `x1` of 512 centres and a row `x2` of 512 log-widths. Its
  value at `(p, q)` depends on row `p` of `x0`, row `q` of `x1` and entry `q` of `x2` only:
    * the row sums of squares reach `(p, q)` through a column (for the points) or a row (for the centres) that is
      then repeated across the block;
    * the matrix product, into a zero accumulator and with both operands narrowed to bf16 (the identity on the
      extended reals), is the inner product of row `p` with row `q`;
    * the widths are a row repeated down the block.
  Put together the entry is `Rbf.entry` of those four scalars, in the spelling `0 - d` over `(2·e)·e`.
-/
import proofs.«121895_j5085241278855_1_alg».proof.Proof.Gen.KernelIdeal.Skeleton
import proofs.«121895_j5085241278855_1_alg».proof.Proof.Spec
import proofs.«121895_j5085241278855_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Rbf

/-- The exponential of a vector, at an index. -/
theorem exp_apply {s : Shape} {φ : FTy} (a : FVec Ideal s φ) (i : s.Idx) : exp a i = Ideal.exp (a i) := rfl

/-- A lane sum of squares over the 512 columns, at row `r`, is the squared norm of that row: the reduced index with
    the column `k` put back is `(r, k)`. -/
theorem sumSq_apply {n : ℕ} (y : FVec Ideal ⟨2, ![n, 512]⟩ .f32)
    (h : (⟨2, ![n, 512]⟩ : Shape).Reduces [1] ⟨1, ![n]⟩) (r : Fin n) :
    multiReduction .add [1] ⟨1, ![n]⟩ (mulf y y) 0x00000000#32 h (.inl rfl) rfl (ix1 r) = rowSq y r := by
  refine (Ideal.multiReduction_add_single (mulf y y) 0x00000000#32 h (.inl rfl) rfl (ix1 r)).trans ?_
  unfold rowSq
  refine Finset.sum_congr rfl fun k _ => ?_
  have e : h.lift (ix1 r) k = ix2 r k := funext fun a => Fin.ext (by match a with | ⟨0, _⟩ => rfl | ⟨1, _⟩ => rfl)
  rw [e]
  rfl

/-- The points' squared norms, kept as a column and repeated across `b` columns: entry `(p, q)` is row `p`'s. -/
theorem sumSq_col {n b : ℕ} (y : FVec Ideal ⟨2, ![n, 512]⟩ .f32)
    (h : (⟨2, ![n, 512]⟩ : Shape).Reduces [1] ⟨1, ![n]⟩) (hc : (⟨1, ![n]⟩ : Shape).ShapeCasts ⟨2, ![n, 1]⟩)
    (hb : (⟨2, ![n, 1]⟩ : Shape).Broadcasts ⟨2, ![n, b]⟩) (p : Fin n) (q : Fin b) :
    broadcastTo ⟨2, ![n, b]⟩ (shapeCast ⟨2, ![n, 1]⟩ (multiReduction .add [1] ⟨1, ![n]⟩ (mulf y y) 0x00000000#32 h (.inl rfl) rfl) hc) hb (ix2 p q)
      = rowSq y p := by
  rw [Cert.Keepdims.broadcastTo_a1_ab_apply, Cert.Keepdims.shapeCast_a_a1_apply]
  exact sumSq_apply y h p

/-- The centres' squared norms, laid as a row and repeated down `a` rows: entry `(p, q)` is centre `q`'s. -/
theorem sumSq_row {a n : ℕ} (y : FVec Ideal ⟨2, ![n, 512]⟩ .f32)
    (h : (⟨2, ![n, 512]⟩ : Shape).Reduces [1] ⟨1, ![n]⟩) (hc : (⟨1, ![n]⟩ : Shape).ShapeCasts ⟨2, ![1, n]⟩)
    (hb : (⟨2, ![1, n]⟩ : Shape).Broadcasts ⟨2, ![a, n]⟩) (p : Fin a) (q : Fin n) :
    broadcastTo ⟨2, ![a, n]⟩ (shapeCast ⟨2, ![1, n]⟩ (multiReduction .add [1] ⟨1, ![n]⟩ (mulf y y) 0x00000000#32 h (.inl rfl) rfl) hc) hb (ix2 p q)
      = rowSq y q := by
  rw [broadcastTo_1b_ab_apply, shapeCast_a_1a_apply]
  exact sumSq_apply y h q

/-- The matrix product of the two blocks contracts the 512 columns of both: its left index at `(p, q)` and
    contraction position `k` is `(p, k)`, its right index `(q, k)`. -/
theorem lhs_row (i : S2048x512.Idx) (k : dot_S2048x512_S512x512_S2048x512_1_1_0_0_n_n.contr.Idx) :
    (dot_S2048x512_S512x512_S2048x512_1_1_0_0_n_n.lhsIdx i k 0).val = (i 0).val := by
  unfold DotDims.lhsIdx
  rw [dif_neg (show ¬(0 : Fin S2048x512.rank) ∈ dot_S2048x512_S512x512_S2048x512_1_1_0_0_n_n.lhsBatch by decide),
    dif_pos (show (0 : Fin S2048x512.rank) ∈ dot_S2048x512_S512x512_S2048x512_1_1_0_0_n_n.lhsNonContracting by decide)]
  rfl
theorem rhs_row (i : S2048x512.Idx) (k : dot_S2048x512_S512x512_S2048x512_1_1_0_0_n_n.contr.Idx) :
    (dot_S2048x512_S512x512_S2048x512_1_1_0_0_n_n.rhsIdx i k 0).val = (i 1).val := by
  unfold DotDims.rhsIdx
  rw [dif_neg (show ¬(0 : Fin S512x512.rank) ∈ dot_S2048x512_S512x512_S2048x512_1_1_0_0_n_n.rhsBatch by decide),
    dif_pos (show (0 : Fin S512x512.rank) ∈ dot_S2048x512_S512x512_S2048x512_1_1_0_0_n_n.rhsNonContracting by decide)]
  rfl

/-- So the product into the zero accumulator, of the two blocks narrowed to bf16, is at `(p, q)` the inner product
    of row `p` of the points with row `q` of the centres. -/
theorem cross_apply (x0 : FVec Ideal S2048x512 .f32) (x1 : FVec Ideal S512x512 .f32) (p : Fin 2048) (q : Fin 512) :
    matmul dot_S2048x512_S512x512_S2048x512_1_1_0_0_n_n none (truncf .bf16 x0 bitsLt_bf16_f32) (truncf .bf16 x1 bitsLt_bf16_f32)
        (constant S2048x512 .f32 0x00000000#32) (ix2 p q)
      = rowDot x0 x1 p q := by
  simp only [matmul]
  rw [Ideal.matmul_constant_zero_apply,
    ← Equiv.sum_comp (ValueIdx.contrEquiv1 dot_S2048x512_S512x512_S2048x512_1_1_0_0_n_n 512 rfl rfl).symm]
  unfold rowDot
  refine Finset.sum_congr rfl fun k _ => ?_
  have hk := ValueIdx.contrEquiv1_symm_val dot_S2048x512_S512x512_S2048x512_1_1_0_0_n_n 512 rfl rfl k
  have el : dot_S2048x512_S512x512_S2048x512_1_1_0_0_n_n.lhsIdx (ix2 p q)
      ((ValueIdx.contrEquiv1 dot_S2048x512_S512x512_S2048x512_1_1_0_0_n_n 512 rfl rfl).symm k) = ix2 p k :=
    funext fun a => Fin.ext (by
      match a with
      | ⟨0, _⟩ => exact lhs_row _ _
      | ⟨1, _⟩ => exact (dot_S2048x512_S512x512_S2048x512_1_1_0_0_n_n.lhsIdx_val_of_single rfl _ _).trans hk)
  have er : dot_S2048x512_S512x512_S2048x512_1_1_0_0_n_n.rhsIdx (ix2 p q)
      ((ValueIdx.contrEquiv1 dot_S2048x512_S512x512_S2048x512_1_1_0_0_n_n 512 rfl rfl).symm k) = ix2 q k :=
    funext fun a => Fin.ext (by
      match a with
      | ⟨0, _⟩ => exact rhs_row _ _
      | ⟨1, _⟩ => exact (dot_S2048x512_S512x512_S2048x512_1_1_0_0_n_n.rhsIdx_val_of_single rfl _ _).trans hk)
  rw [el, er]
  rfl

/-- The denominator: `(2 · e^{ls}) · e^{ls}` computed on the row of log-widths and repeated down the block. -/
theorem width_apply (x2 : FVec Ideal S1x512 .f32) (hs : S1x512.ShapeCasts S1x512) (hb : S1x512.Broadcasts S2048x512)
    (p : Fin 2048) (q : Fin 512) :
    broadcastTo S2048x512 (mulf (mulf (broadcast S1x512 (Scalar.ofBits (F := Ideal) .f32 0x40000000#32)) (exp (shapeCast S1x512 x2 hs)))
        (exp (shapeCast S1x512 x2 hs))) hb (ix2 p q)
      = (two * Ideal.exp (x2 (ix2 (0 : Fin 1) q))) * Ideal.exp (x2 (ix2 (0 : Fin 1) q)) := by
  rw [broadcastTo_1b_ab_apply, shapeCast_self]
  rfl

/-- THE PAYLOAD AT AN ENTRY. -/
theorem pay_apply (x0 : FVec Ideal S2048x512 .f32) (x1 : FVec Ideal S512x512 .f32) (x2 : FVec Ideal S1x512 .f32)
    (p : Fin 2048) (q : Fin 512) :
    k0_pay1 (F := Ideal) x0 x1 x2 (ix2 p q)
      = entry (rowSq x0 p) (rowSq x1 q) (rowDot x0 x1 p q) (Ideal.exp (x2 (ix2 (0 : Fin 1) q))) := by
  refine Eq.trans ?_ (entry_of_word_sub _ _ _ _)
  unfold k0_pay1
  exact congrArg Ideal.exp (congrArg₂ Ideal.div
    (congrArg (Ideal.ofBits .f32 0x00000000#32 - ·)
      (congrArg₂ (· - ·)
        (congrArg₂ (· + ·) (sumSq_col x0 _ _ _ p q) (sumSq_row x1 _ _ _ p q))
        (congrArg (two * ·) (cross_apply x0 x1 p q))))
    (width_apply x2 _ _ p q))

end Cert.KernelIdeal.Payload

end
-- ==== Proof.Blocks.lean ====
/-
  From the grid's blocks to the whole [16384, 2048] array.

  The grid has 8 × 4 points. Point `t` = (i, j) is handed rows `2048·i … 2048·i + 2047` of the points, rows
  `512·j … 512·j + 511` of the centres and entries `512·j … 512·j + 511` of the log-widths (these last through the
  [1, 2048] view of the width vector that the program makes before the grid starts), and writes back block (i, j) of
  the result. Entry `(p, q)` of what it writes depends on row `p` of its points, row `q` of its centres and width `q`,
  which are row `2048·i + p`, row `512·j + q` and width `512·j + q` of the arguments: so the block is block (i, j) of
  `Rbf.rbf` of the whole arguments. The 32 blocks tile the array — entry `(n, r)` lies in block (n / 2048, r / 512) —
  hence the array ends holding `Rbf.rbf`.
-/
import proofs.«121895_j5085241278855_1_alg».proof.Proof.Gen.KernelIdeal.Value
import proofs.«121895_j5085241278855_1_alg».proof.Proof.Payload
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx Cert.Rbf
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the result array ends holding: `rbf` of the three arguments as launched. -/
abbrev result (c : Dev nD) : S16384x2048.Idx → EReal :=
  rbf (m ((c : Thread nD τ).loc main_arg0)) (m ((c : Thread nD τ).loc main_arg1)) (m ((c : Thread nD τ).loc main_arg2))

/-- The block indices over the grid: the points' block follows the result's row block, the centres' and the widths'
    blocks follow its column block, and the result's block indices range over 8 × 4. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block (i, j) of the 8 × 4 is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- The [1, 2048] array the widths' window reads is the width vector viewed as one row. -/
theorem V_main_v0 (c : Dev nD) :
    (V m c main_v0 : S1x2048.Idx → EReal)
      = shapeCast S1x2048 (m ((c : Thread nD τ).loc main_arg2) : S2048.Idx → EReal) shapeCasts_S2048_S1x2048 := by
  dsimp only [Gen.V, Gen.hostOps0]
  after_results
  rfl

/-- Row `p` of the points' block at point `t` is row `2048·i + p` of the points. -/
theorem blk_x (c : Dev nD) (t : Fin cfg0.N) (p : Fin 2048) (k : Fin 512) (n : Fin 16384)
    (hn : n.val = win0_3.index t (0 : Fin 2) * 2048 + p.val) :
    (iblk m c 0 t : FVec Ideal S2048x512 .f32) (ix2 p k)
      = (m ((c : Thread nD τ).loc main_arg0) : S16384x512.Idx → EReal) (ix2 n k) := by
  obtain ⟨e0, e1, -⟩ := idx_facts t
  show V m c main_arg0 (((cfg0.win 0).blk t).view.emb (ix2 p k : S2048x512.Idx)) = _
  rw [V_main_arg0]
  congr 1
  funext a
  apply Fin.ext
  match a with
  | ⟨0, _⟩ => show win0_0.index t (0 : Fin 2) * 2048 + 1 * p.val = n.val; omega
  | ⟨1, _⟩ => show win0_0.index t (1 : Fin 2) * 512 + 1 * k.val = k.val; omega

/-- Row `q` of the centres' block at point `t` is row `512·j + q` of the centres. -/
theorem blk_c (c : Dev nD) (t : Fin cfg0.N) (q : Fin 512) (k : Fin 512) (r : Fin 2048)
    (hr : r.val = win0_3.index t (1 : Fin 2) * 512 + q.val) :
    (iblk m c 1 t : FVec Ideal S512x512 .f32) (ix2 q k)
      = (m ((c : Thread nD τ).loc main_arg1) : S2048x512.Idx → EReal) (ix2 r k) := by
  obtain ⟨-, -, e2, e3, -⟩ := idx_facts t
  show V m c main_arg1 (((cfg0.win 1).blk t).view.emb (ix2 q k : S512x512.Idx)) = _
  rw [V_main_arg1]
  congr 1
  funext a
  apply Fin.ext
  match a with
  | ⟨0, _⟩ => show win0_1.index t (0 : Fin 2) * 512 + 1 * q.val = r.val; omega
  | ⟨1, _⟩ => show win0_1.index t (1 : Fin 2) * 512 + 1 * k.val = k.val; omega

/-- Entry `q` of the widths' block at point `t` is log-width `512·j + q`. -/
theorem blk_ls (c : Dev nD) (t : Fin cfg0.N) (q : Fin 512) (r : Fin 2048)
    (hr : r.val = win0_3.index t (1 : Fin 2) * 512 + q.val) :
    (iblk m c 2 t : FVec Ideal S1x512 .f32) (ix2 (0 : Fin 1) q)
      = (m ((c : Thread nD τ).loc main_arg2) : S2048.Idx → EReal) (ix1 r) := by
  obtain ⟨-, -, -, -, e4, e5, -⟩ := idx_facts t
  show V m c main_v0 (((cfg0.win 2).blk t).view.emb (ix2 (0 : Fin 1) q : S1x512.Idx)) = _
  have hemb : ((cfg0.win 2).blk t).view.emb (ix2 (0 : Fin 1) q : S1x512.Idx) = (ix2 (0 : Fin 1) r : S1x2048.Idx) := by
    funext a
    apply Fin.ext
    match a with
    | ⟨0, _⟩ => show win0_2.index t (0 : Fin 2) * 1 + 1 * 0 = 0; omega
    | ⟨1, _⟩ => show win0_2.index t (1 : Fin 2) * 512 + 1 * q.val = r.val; omega
  rw [hemb, V_main_v0]
  exact shapeCast_a_1a_apply _ _ (0 : Fin 1) r

/-- WHAT POINT `t` WRITES BACK is block `t` of `rbf` of the arguments. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S2048x512) hz, View.ld_unit_zero (S := S512x512) hz, View.ld_unit_zero (S := S1x512) hz]
  obtain ⟨-, -, -, -, -, -, b0, b1⟩ := idx_facts t
  funext j
  obtain ⟨p, q, rfl⟩ : ∃ (p : Fin 2048) (q : Fin 512), j = ix2 p q := ⟨j 0, j 1, eq_ix2 j⟩
  have hp : win0_3.index t (0 : Fin 2) * 2048 + p.val < 16384 := by have := p.isLt; omega
  have hq : win0_3.index t (1 : Fin 2) * 512 + q.val < 2048 := by have := q.isLt; omega
  have hemb : ((cfg0.win 3).blk t).view.emb (ix2 p q : S2048x512.Idx)
      = (ix2 (⟨_, hp⟩ : Fin 16384) (⟨_, hq⟩ : Fin 2048) : S16384x2048.Idx) := by
    funext a
    apply Fin.ext
    match a with
    | ⟨0, _⟩ => show win0_3.index t (0 : Fin 2) * 2048 + 1 * p.val = win0_3.index t (0 : Fin 2) * 2048 + p.val; omega
    | ⟨1, _⟩ => show win0_3.index t (1 : Fin 2) * 512 + 1 * q.val = win0_3.index t (1 : Fin 2) * 512 + q.val; omega
  show k0_pay1 (iblk m c 0 t) (iblk m c 1 t) (iblk m c 2 t) (ix2 p q)
    = rbf (m ((c : Thread nD τ).loc main_arg0)) (m ((c : Thread nD τ).loc main_arg1)) (m ((c : Thread nD τ).loc main_arg2))
        (((cfg0.win 3).blk t).view.emb (ix2 p q : S2048x512.Idx))
  refine (Payload.pay_apply (iblk m c 0 t) (iblk m c 1 t) (iblk m c 2 t) p q).trans ?_
  rw [hemb, rbf_apply]
  exact entry_congr
    (rowSq_congr fun k => blk_x m c t p k ⟨_, hp⟩ rfl)
    (rowSq_congr fun k => blk_c m c t q k ⟨_, hq⟩ rfl)
    (rowDot_congr (fun k => blk_x m c t p k ⟨_, hp⟩ rfl) (fun k => blk_c m c t q k ⟨_, hq⟩ rfl))
    (congrArg Ideal.exp (blk_ls m c t q ⟨_, hq⟩ rfl))

/-- An entry of the array is in point `t`'s block iff each coordinate is in the block's range on its axis. -/
theorem mem_blk (t : Fin cfg0.N) (i : S16384x2048.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v1).slice (win0_3.rect t)).set ↔ _
  rw [View.set_slice_whole, Rect.mem_set_unit]
  exact Iff.rfl

/-- Every entry `(n, r)` is in the block of the point with block indices (n / 2048, r / 512). -/
theorem cover (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := idx_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- THE ARRAY after the run is `rbf` of the arguments. -/
theorem final (c : Dev nD) : (dats m 0 c).arrAt 3 cfg0.N = result m c :=
  (dats m 0 c).arrAt_eq_of_cover 3 (result m c) (fun t _ => flushed_eq m c t) cover

/-- The run, read: the result array at `rbf` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefIsSpec.lean ====
/-
  The plain program computes `Rbf.rbf`.

  Read one operation at a time, its last stage at `(n, r)` is
      exp ( -( ((0 + Σ_k x[n,k]·x[n,k]) + (0 + Σ_k c[r,k]·c[r,k])) - 2 · Σ_k x[n,k]·c[r,k] ) / ( 2 · (e^{ls[r]} · e^{ls[r]}) ) )
  — the two squared norms reach `(n, r)` through broadcasts that read row `n` and row `r`, the contraction reads
  `(n, k)` and `(r, k)`, the widths read `r` — and a sum started at the zero word is the sum.
-/
import proofs.«121895_j5085241278855_1_alg».proof.Proof.Gen.ReferenceIdeal.Read
import proofs.«121895_j5085241278855_1_alg».proof.Proof.Spec

noncomputable section

namespace Cert.ReferenceIdeal.RefValue

open Cert.ReferenceIdeal Cert.ReferenceIdeal.Read Idealize.ShloMosaic Idealize.ShloMosaic.ValueIdx Cert.Rbf

/-- The plain program's result term is `rbf` of its three arguments, entry by entry. -/
theorem ref_eq (x0 : (⟨S16384x512, .f32⟩ : BufTy).Contents (Elt Ideal)) (x1 : (⟨S2048x512, .f32⟩ : BufTy).Contents (Elt Ideal))
    (x2 : (⟨S2048, .f32⟩ : BufTy).Contents (Elt Ideal)) :
    val_main_v21 (F := Ideal) x0 x1 x2 = rbf x0 x1 x2 := by
  funext i
  obtain ⟨n, r, rfl⟩ : ∃ (n : Fin 16384) (r : Fin 2048), i = ix2 n r := ⟨i 0, i 1, eq_ix2 i⟩
  -- where each broadcast, reduction and contraction reads its operand
  have ex : ∀ k : Fin 512, idx_main_v1 (idx_main_v2 (idx_main_v7 (ix2 n r))) k = ix2 n k := fun k =>
    funext fun a => Fin.ext (by match a with | ⟨0, _⟩ => rfl | ⟨1, _⟩ => rfl)
  have ec : ∀ k : Fin 512, idx_main_v4 (idx_main_v6 (idx_main_v8 (ix2 n r))) k = ix2 r k := fun k =>
    funext fun a => Fin.ext (by match a with | ⟨0, _⟩ => rfl | ⟨1, _⟩ => rfl)
  have el : ∀ k : Fin 512, lidx_main_v5 (ix2 n r) k = ix2 n k := fun k =>
    funext fun a => Fin.ext (by match a with | ⟨0, _⟩ => rfl | ⟨1, _⟩ => rfl)
  have er : ∀ k : Fin 512, ridx_main_v5 (ix2 n r) k = ix2 r k := fun k =>
    funext fun a => Fin.ext (by match a with | ⟨0, _⟩ => rfl | ⟨1, _⟩ => rfl)
  have ew : idx_main_v15 (idx_main_v19 (ix2 n r)) = ix1 r :=
    funext fun a => Fin.ext (by match a with | ⟨0, _⟩ => rfl)
  rw [rbf_apply]
  unfold entry rowSq rowDot
  simp only [val_main_v21_apply, val_main_v20_apply, val_main_v19_apply, val_main_v18_apply, val_main_v17_apply,
    val_main_v16_apply, val_main_v15_apply, val_main_v14_apply, val_main_v13_apply, val_main_v12_apply,
    val_main_v11_apply, val_main_v10_apply, val_main_v9_apply, val_main_v8_apply, val_main_v7_apply,
    val_main_v6_apply, val_main_v5_apply, val_main_v4_apply, val_main_v3_apply, val_main_v2_apply,
    val_main_v1_apply, val_main_v0_apply, val_main_cst_apply, val_main_cst_0_apply, val_main_cst_1_apply,
    val_main_cst_2_apply, ex, ec, el, er, ew,
    Ideal.hostUnary_exp_def, Ideal.hostDivf_def, Ideal.hostNegf_def, Ideal.negf_def, Ideal.subf_def, Ideal.addf_def,
    Ideal.mulf_def, Ideal.ofBits_def, zero_word_add]

end Cert.ReferenceIdeal.RefValue

end
-- ==== Proof.lean ====
/-
  A Gaussian radial-basis layer, tiled, against its plain form.

  Both programs take 16384 points and 2048 centres in 512 coordinates and 2048 log-widths, and return
      out[n, m] = exp ( -( (|x_n|² + |c_m|²) - 2 · <x_n, c_m> ) / ( 2 · (e^{ls_m})² ) ).
  The tiled program works on an 8 × 4 grid of [2048, 512] blocks of the result; in each it sums squares along the
  rows of its block of points and of its block of centres, takes the inner products by one matrix product (its
  operands narrowed to bf16 first, which is the identity on the extended reals), and finishes entry by entry. The
  plain program does the same on the whole arrays.

  On the extended reals the two agree at EVERY input, finite or not: the squared distance is the same expression of
  the same three sums on both sides, and the only differences of spelling — `0 - d` for `-d`, `(2·e)·e` for
  `2·(e·e)`, a sum started from a zero word — are identities of the extended reals that need no finiteness.

  The pieces: `Spec` states the result as one function `Rbf.rbf` of the three arrays; `Payload` reads one grid
  point's stored value at an entry; `Blocks` shows that each point writes its block of `rbf` and that the blocks
  tile the array; `RefIsSpec` shows that the plain program's result is `rbf`. Below, the two runs are set side by
  side. The tiled program's own idealization rewrote nothing, so that claim is trivial; the three frame claims are
  the runs with the result forgotten.
-/
import proofs.«121895_j5085241278855_1_alg».proof.Defs
import proofs.«121895_j5085241278855_1_alg».proof.Proof.Gen.Kernel
import proofs.«121895_j5085241278855_1_alg».proof.Proof.Gen.Kernel.Skeleton
import proofs.«121895_j5085241278855_1_alg».proof.Proof.Gen.Kernel.Launch
import proofs.«121895_j5085241278855_1_alg».proof.Proof.Gen.Kernel.Points
import proofs.«121895_j5085241278855_1_alg».proof.Proof.Gen.Kernel.Frame
import proofs.«121895_j5085241278855_1_alg».proof.Proof.Gen.KernelIdeal
import proofs.«121895_j5085241278855_1_alg».proof.Proof.Gen.KernelIdeal.Skeleton
import proofs.«121895_j5085241278855_1_alg».proof.Proof.Gen.KernelIdeal.Launch
import proofs.«121895_j5085241278855_1_alg».proof.Proof.Gen.KernelIdeal.Points
import proofs.«121895_j5085241278855_1_alg».proof.Proof.Gen.KernelIdeal.Frame
import proofs.«121895_j5085241278855_1_alg».proof.Proof.Gen.ReferenceIdeal
import proofs.«121895_j5085241278855_1_alg».proof.Proof.Gen.Pre_finite_inputs
import proofs.«121895_j5085241278855_1_alg».proof.Proof.Gen.KernelIdeal.Value
import proofs.«121895_j5085241278855_1_alg».proof.Proof.Gen.ReferenceIdeal.Run
import proofs.«121895_j5085241278855_1_alg».proof.Proof.Gen.ReferenceIdeal.Read
import proofs.«121895_j5085241278855_1_alg».proof.Proof.Blocks
import proofs.«121895_j5085241278855_1_alg».proof.Proof.RefIsSpec
import Idealize.ShloMosaic.Adequacy
import Idealize.ShloMosaic.Init

noncomputable section

namespace Cert.Proof

open Idealize.ShloMosaic Idealize.ShloMosaic.TcCoe Idealize.SL.Sem

/-- The tiled program as printed runs and leaves its arguments as they were. -/
theorem frame_kernel : Cert.frame_Kernel := fun m ρ _ => Cert.Kernel.Gen.frame m ρ

/-- So does it read at the extended reals. -/
theorem frame_kernelIdeal : Cert.frame_KernelIdeal := fun m ρ _ => Cert.KernelIdeal.Gen.frame m ρ

/-- The plain program's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the three arguments, the tiled program's result array ends at `rbf` of them
    (`Blocks.run`) and the plain program's at its last stage, which is `rbf` of them too (`RefValue.ref_eq`). -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
